-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x256x128 : Shape := ⟨3, ![8, 256, 128]⟩
abbrev S256x128 : Shape := ⟨2, ![256, 128]⟩
abbrev S128 : Shape := ⟨1, ![128]⟩
abbrev S_ : Shape := ⟨0, ![]⟩

class Facts : Prop where
  bcast_S_S8x256x128 : S_.BroadcastsInDim S8x256x128 (![] : Fin 0 → Fin S8x256x128.rank)
  reducesTo_S8x256x128_S_d0_1_2 : S8x256x128.ReducesTo [0, 1, 2] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S8x256x128 .f32) (main_arg1 : FVec F S256x128 .f32) (main_arg2 : FVec F S128 .f32) : IVec S_ 1 :=
  let main_v0 : FVec F S8x256x128 .f32 := Host.absf main_arg0
  let main_cst : FVec F S_ .f32 := constant S_ .f32 0x7F800000#32
  let main_v1 : FVec F S8x256x128 .f32 := broadcastInDim S8x256x128 ![] bcast_S_S8x256x128 main_cst
  let main_v2 : IVec S8x256x128 1 := cmpf .olt main_v0 main_v1
  let main_c : IVec S_ 1 := constantI S_ 1 1#1
  let main_v3 : IVec S_ 1 := (fun x v => Host.reduce IntOp.andi x v reducesTo_S8x256x128_S_d0_1_2 h_S_) main_v2 main_c
  let main_v4 : FVec F S256x128 .f32 := Host.absf main_arg1
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S8x256x128 : Shape := ⟨3, ![8, 256, 128]⟩
abbrev S256x128 : Shape := ⟨2, ![256, 128]⟩
abbrev S128 : Shape := ⟨1, ![128]⟩
abbrev S128x128 : Shape := ⟨2, ![128, 128]⟩
abbrev S1x128 : Shape := ⟨2, ![1, 128]⟩
abbrev S1x256x128 : Shape := ⟨3, ![1, 256, 128]⟩
abbrev S1x64x128 : Shape := ⟨3, ![1, 64, 128]⟩
abbrev S64x128 : Shape := ⟨2, ![64, 128]⟩
abbrev S64x1x128 : Shape := ⟨3, ![64, 1, 128]⟩
abbrev S64x256x128 : Shape := ⟨3, ![64, 256, 128]⟩

abbrev nBuf : Space → Nat
  | .hbm => 9
  | .vmem => 15
  | .smem => 0
  | _ => 0

abbrev bufTy : (tb : Table) → Fin (tcTables nBuf tb) → BufTy
  | .hbm, ⟨0, _⟩ => ⟨S8x256x128, .f32⟩
  | .hbm, ⟨1, _⟩ => ⟨S256x128, .f32⟩
  | .hbm, ⟨2, _⟩ => ⟨S128, .f32⟩
  | .hbm, ⟨3, _⟩ => ⟨S128x128, .f32⟩
  | .hbm, ⟨4, _⟩ => ⟨S128x128, .f32⟩
  | .hbm, ⟨5, _⟩ => ⟨S1x128, .f32⟩
  | .hbm, ⟨6, _⟩ => ⟨S8x256x128, .f32⟩
  | .hbm, ⟨7, _⟩ => ⟨S8x256x128, .f32⟩
  | .hbm, ⟨8, _⟩ => ⟨S8x256x128, .f32⟩
  | .local _ .vmem, ⟨0, _⟩ => ⟨S1x256x128, .f32⟩
  | .local _ .vmem, ⟨1, _⟩ => ⟨S1x256x128, .f32⟩
  | .local _ .vmem, ⟨2, _⟩ => ⟨S128x128, .f32⟩
  | .local _ .vmem, ⟨3, _⟩ => ⟨S128x128, .f32⟩
  | .local _ .vmem, ⟨4, _⟩ => ⟨S1x128, .f32⟩
  | .local _ .vmem, ⟨5, _⟩ => ⟨S1x256x128, .f32⟩
  | .local _ .vmem, ⟨6, _⟩ => ⟨S1x256x128, .f32⟩
  | .local _ .vmem, ⟨7, _⟩ => ⟨S1x256x128, .f32⟩
  | .local _ .vmem, ⟨8, _⟩ => ⟨S1x256x128, .f32⟩
  | .local _ .vmem, ⟨9, _⟩ => ⟨S1x64x128, .f32⟩
  | .local _ .vmem, ⟨10, _⟩ => ⟨S1x64x128, .f32⟩
  | .local _ .vmem, ⟨11, _⟩ => ⟨S1x256x128, .f32⟩
  | .local _ .vmem, ⟨12, _⟩ => ⟨S1x256x128, .f32⟩
  | .local _ .vmem, ⟨13, _⟩ => ⟨S1x64x128, .f32⟩
  | .local _ .vmem, ⟨14, _⟩ => ⟨S1x64x128, .f32⟩
  | _, _ => ⟨S8x256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨2, ![8, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x64x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x256x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x64x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  slices_S256x128_S128x128_0_0 : S256x128.Slices ![0, 0] S128x128
  slices_S256x128_S128x128_128_0 : S256x128.Slices ![128, 0] S128x128
  shapeCasts_S128_S1x128 : S128.ShapeCasts S1x128
  inb_S1x256x128_S1x256x128_0_0_0 : ∀ a, (![0, 0, 0] : Fin 3 → Nat) a + S1x256x128.size a ≤ S1x256x128.size a
  h_S1x256x128 : 0 < S1x256x128.numel
  shapeCasts_S1x256x128_S256x128 : S1x256x128.ShapeCasts S256x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S128 : S1x128.ShapeCasts S128
  broadcasts_S1x128_S256x128 : S1x128.Broadcasts S256x128
  shapeCasts_S256x128_S1x256x128 : S256x128.ShapeCasts S1x256x128
  inb_S1x64x128_S1x64x128_0_0_0 : ∀ a, (![0, 0, 0] : Fin 3 → Nat) a + S1x64x128.size a ≤ S1x64x128.size a
  h_S1x64x128 : 0 < S1x64x128.numel
  shapeCasts_S1x64x128_S64x128 : S1x64x128.ShapeCasts S64x128
  shapeCasts_S64x128_S64x1x128 : S64x128.ShapeCasts S64x1x128
  broadcasts_S64x1x128_S64x256x128 : S64x1x128.Broadcasts S64x256x128
  broadcasts_S1x256x128_S64x256x128 : S1x256x128.Broadcasts S64x256x128
  reduces_S64x256x128_S64x128 : S64x256x128.Reduces [1] S64x128
  shapeCasts_S64x128_S1x64x128 : S64x128.ShapeCasts S1x64x128
  dot_S256x128_S128x128_S256x128_1_0_0_1_n_n_wf : DotDims.WF S256x128 S128x128 S256x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x128.size a ≤ S8x256x128.size a
  hwx0_0 : ∀ i : grid0.Coords, EltTy.bits .f32 = 32 ∨ (Rect.block (s := S8x256x128) S1x256x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x128.size a ≤ S8x256x128.size a
  hwx0_4 : ∀ i : grid0.Coords, EltTy.bits .f32 = 32 ∨ (Rect.block (s := S8x256x128) S1x256x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256x128.size a ≤ S8x256x128.size a
  hwx0_5 : ∀ i : grid0.Coords, EltTy.bits .f32 = 32 ∨ (Rect.block (s := S8x256x128) S1x256x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x64x128.size a ≤ S8x256x128.size a
  hwx1_0 : ∀ i : grid1.Coords, EltTy.bits .f32 = 32 ∨ (Rect.block (s := S8x256x128) S1x64x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x256x128.size a ≤ S8x256x128.size a
  hwx1_1 : ∀ i : grid1.Coords, EltTy.bits .f32 = 32 ∨ (Rect.block (s := S8x256x128) S1x256x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x64x128.size a ≤ S8x256x128.size a
  hwx1_2 : ∀ i : grid1.Coords, EltTy.bits .f32 = 32 ∨ (Rect.block (s := S8x256x128) S1x64x128.size (cc1_transform_2 i) (hinb1_2 i)).WholeWords (EltTy.packing .f32)

variable [Facts₀]

def dot_S256x128_S128x128_S256x128_1_0_0_1_n_n : DotDims S256x128 S128x128 S256x128 where
  lhsContracting := [1]
  rhsContracting := [0]
  lhsNonContracting := [0]
  rhsNonContracting := [1]
  lhsBatch := []
  rhsBatch := []
  wf := dot_S256x128_S128x128_S256x128_1_0_0_1_n_n_wf

abbrev win0_0 : Pipeline.Window sig grid0 :=
  Pipeline.Window.ofSpec (Memref.whole main_arg0) S1x256x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3_0) S1x256x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3_1) S1x256x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v3_0) S1x64x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3_1) S1x256x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1x64x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S8x256x128 : Shape := ⟨3, ![8, 256, 128]⟩
abbrev S256x128 : Shape := ⟨2, ![256, 128]⟩
abbrev S128 : Shape := ⟨1, ![128]⟩
abbrev S128x128 : Shape := ⟨2, ![128, 128]⟩
abbrev S8x256x1x128 : Shape := ⟨4, ![8, 256, 1, 128]⟩
abbrev S8x1x256x128 : Shape := ⟨4, ![8, 1, 256, 128]⟩
abbrev S8x256x256x128 : Shape := ⟨4, ![8, 256, 256, 128]⟩
abbrev S1x1x1x128 : Shape := ⟨4, ![1, 1, 1, 128]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S8x256x128, .f32⟩
  | .hbm, ⟨1, _⟩ => ⟨S256x128, .f32⟩
  | .hbm, ⟨2, _⟩ => ⟨S128, .f32⟩
  | .hbm, ⟨3, _⟩ => ⟨S128x128, .f32⟩
  | .hbm, ⟨4, _⟩ => ⟨S128x128, .f32⟩
  | .hbm, ⟨5, _⟩ => ⟨S8x256x128, .f32⟩
  | .hbm, ⟨6, _⟩ => ⟨S8x256x128, .f32⟩
  | .hbm, ⟨7, _⟩ => ⟨S8x256x1x128, .f32⟩
  | .hbm, ⟨8, _⟩ => ⟨S8x1x256x128, .f32⟩
  | .hbm, ⟨9, _⟩ => ⟨S8x256x256x128, .f32⟩
  | .hbm, ⟨10, _⟩ => ⟨S8x256x256x128, .f32⟩
  | .hbm, ⟨11, _⟩ => ⟨S8x256x256x128, .f32⟩
  | .hbm, ⟨12, _⟩ => ⟨S1x1x1x128, .f32⟩
  | .hbm, ⟨13, _⟩ => ⟨S8x256x256x128, .f32⟩
  | .hbm, ⟨14, _⟩ => ⟨S8x256x256x128, .f32⟩
  | .hbm, ⟨15, _⟩ => ⟨S_, .f32⟩
  | .hbm, ⟨16, _⟩ => ⟨S8x256x256x128, .f32⟩
  | .hbm, ⟨17, _⟩ => ⟨S8x256x256x128, .f32⟩
  | .hbm, ⟨18, _⟩ => ⟨S_, .f32⟩
  | .hbm, ⟨19, _⟩ => ⟨S8x256x128, .f32⟩
  | _, _ => ⟨S8x256x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_call0_cst : Ref sig .tc := ⟨.hbm, 15, rfl⟩
abbrev main_call0_v0 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩

abbrev nD : Nat := 1
abbrev τ : Topo := Topo.v7x

variable {F : FTy → Type} [FloatOps F]

class Facts₀ : Prop where
  slices_S256x128_S128x128_0_0 : S256x128.Slices ![0, 0] S128x128
  slices_S256x128_S128x128_128_0 : S256x128.Slices ![128, 0] S128x128
  bcast_S8x256x128_S8x256x1x128_0_1_3 : S8x256x128.BroadcastsInDim S8x256x1x128 (![0, 1, 3] : Fin 3 → Fin S8x256x1x128.rank)
  bcast_S8x256x128_S8x1x256x128_0_2_3 : S8x256x128.BroadcastsInDim S8x1x256x128 (![0, 2, 3] : Fin 3 → Fin S8x1x256x128.rank)
  bcast_S8x256x1x128_S8x256x256x128_0_1_2_3 : S8x256x1x128.BroadcastsInDim S8x256x256x128 (![0, 1, 2, 3] : Fin 4 → Fin S8x256x256x128.rank)
  bcast_S8x1x256x128_S8x256x256x128_0_1_2_3 : S8x1x256x128.BroadcastsInDim S8x256x256x128 (![0, 1, 2, 3] : Fin 4 → Fin S8x256x256x128.rank)
  bcast_S128_S1x1x1x128_3 : S128.BroadcastsInDim S1x1x1x128 (![3] : Fin 1 → Fin S1x1x1x128.rank)
  bcast_S1x1x1x128_S8x256x256x128_0_1_2_3 : S1x1x1x128.BroadcastsInDim S8x256x256x128 (![0, 1, 2, 3] : Fin 4 → Fin S8x256x256x128.rank)
  bcast_S_S8x256x256x128 : S_.BroadcastsInDim S8x256x256x128 (![] : Fin 0 → Fin S8x256x256x128.rank)
  reducesTo_S8x256x256x128_S8x256x128_d2 : S8x256x256x128.ReducesTo [2] S8x256x128
  h_S_ : 0 < S_.numel
  dot_S8x256x128_S128x128_S8x256x128_2_0_01_1_n_n_wf : DotDims.WF S8x256x128 S128x128 S8x256x128 [2] [0] [0, 1] [1] [] []

variable [Facts₀]

def dot_S8x256x128_S128x128_S8x256x128_2_0_01_1_n_n : DotDims S8x256x128 S128x128 S8x256x128 where
  lhsContracting := [2]
  rhsContracting := [0]
  lhsNonContracting := [0, 1]
  rhsNonContracting := [1]
  lhsBatch := []
  rhsBatch := []
  wf := dot_S8x256x128_S128x128_S8x256x128_2_0_01_1_n_n_wf

class Facts : Prop extends Facts₀ where

variable [Facts]
-- ==== Proof.Spec.lean ====
/-
  The relational layer as mathematics, over the extended reals.

  Nodes carry feature rows `x[b, n, ·]` (8 batches, 256 nodes, 128 features). The stacked weights `W` (256 × 128) are two
  square blocks, the top one applied to the receiving node and the bottom one to the sending node. An edge from node `j`
  to node `i` carries `max (x[b,i,·]·W_top + x[b,j,·]·W_bot + β, 0)`, and node `i`'s result is the sum of its 256
  incoming edges.

  The same number can be grouped in two ways: the bias may be added to the receiving node's projection once, before
  the edges are formed, or to every edge after the two projections are added. Addition on the extended reals is
  commutative and associative (also at the infinities), so the two groupings agree: `reluSum_projBias`.
-/
import Idealize.ShloMosaic.PureOps.Ideal
import Idealize.ShloMosaic.Lib.ValueIdx

noncomputable section

open scoped BigOperators

namespace Cert.EdgeSum

open Idealize.ShloMosaic Idealize.ShloMosaic.ValueIdx

/-- The node arrays: batch, node, feature. -/
abbrev SN : Shape := ⟨3, ![8, 256, 128]⟩
/-- One square weight block: input feature, output feature. -/
abbrev SQ : Shape := ⟨2, ![128, 128]⟩
/-- The stacked weights: the top block's 128 rows, then the bottom block's. -/
abbrev SW : Shape := ⟨2, ![256, 128]⟩
/-- The bias as one row. -/
abbrev SR : Shape := ⟨2, ![1, 128]⟩
/-- The bias as a vector. -/
abbrev SV : Shape := ⟨1, ![128]⟩

/-- Node `n` of batch `b` projected by a weight block, at output feature `f`: `∑_d x[b,n,d] · w[d,f]`. -/
def proj (x : SN.Idx → EReal) (w : SQ.Idx → EReal) (b : Fin 8) (n : Fin 256) (f : Fin 128) : EReal :=
  ∑ d : Fin 128, x (ix3 b n d) * w (ix2 d f)

/-- Every node projected by a weight block. -/
def projAll (x : SN.Idx → EReal) (w : SQ.Idx → EReal) : SN.Idx → EReal :=
  fun i => proj x w (i 0) (i 1) (i 2)

/-- Every node projected by a weight block, the bias row added to each projected node. -/
def projBias (x : SN.Idx → EReal) (w : SQ.Idx → EReal) (r : SR.Idx → EReal) : SN.Idx → EReal :=
  fun i => proj x w (i 0) (i 1) (i 2) + r (ix2 (0 : Fin 1) (i 2))

/-- From a receiving-node array `a` and a sending-node array `c`: at node `i`, the sum over the sending nodes `j` of
    the batch of `max (a[b,i,f] + c[b,j,f], 0)`. -/
def reluSum (a c : SN.Idx → EReal) : SN.Idx → EReal :=
  fun i => ∑ j : Fin 256, max (a i + c (ix3 (i 0) j (i 2))) 0

/-- Row `d` of the top block is row `d` of the stacked weights. -/
def topRow (d : Fin 128) : Fin 256 := ⟨d.val, by omega⟩
/-- Row `d` of the bottom block is row `128 + d` of the stacked weights. -/
def botRow (d : Fin 128) : Fin 256 := ⟨128 + d.val, by omega⟩

/-- The top block of the stacked weights. -/
def top (W : SW.Idx → EReal) : SQ.Idx → EReal := fun i => W (ix2 (topRow (i 0)) (i 1))
/-- The bottom block of the stacked weights. -/
def bot (W : SW.Idx → EReal) : SQ.Idx → EReal := fun i => W (ix2 (botRow (i 0)) (i 1))
/-- The bias vector laid out as one row. -/
def row (β : SV.Idx → EReal) : SR.Idx → EReal := fun i => β (ix1 (i 1))

/-- THE SPECIFICATION. Node `i`'s result: over the sending nodes `j`, the sum of
    `max (x[b,i,·]·W_top + x[b,j,·]·W_bot + β, 0)`, the bias added to each edge last. -/
def edgeSum (x : SN.Idx → EReal) (W : SW.Idx → EReal) (β : SV.Idx → EReal) : SN.Idx → EReal :=
  fun i => ∑ j : Fin 256, max (proj x (top W) (i 0) (i 1) (i 2) + proj x (bot W) (i 0) j (i 2) + β (ix1 (i 2))) 0

/-- THE LAW. Adding the bias to the receiving node's projection before the edges are formed gives the specification:
    `(p + β) + q = (p + q) + β` in each edge, by commutativity and associativity of addition alone. -/
theorem reluSum_projBias (x : SN.Idx → EReal) (W : SW.Idx → EReal) (β : SV.Idx → EReal) :
    reluSum (projBias x (top W) (row β)) (projAll x (bot W)) = edgeSum x W β := by
  funext i
  unfold reluSum edgeSum
  refine Finset.sum_congr rfl fun j _ => ?_
  show max (proj x (top W) (i 0) (i 1) (i 2) + β (ix1 (i 2)) + proj x (bot W) (i 0) j (i 2)) 0 = _
  rw [add_right_comm]

end Cert.EdgeSum

end
-- ==== Proof.Reference.lean ====
/-
  The reference computes the specification. Its host program forms both node projections as contractions over the
  input feature, lays the receiving nodes along one axis and the sending nodes along another, adds the two and then the
  bias, takes the maximum with zero, and sums over the sending-node axis from zero. Read one operation at a time at an
  index `(b, n, f)`, that is `0 + ∑_j max (x[b,n,·]·W_top[·,f] + x[b,j,·]·W_bot[·,f] + β[f], 0)`.
-/
import proofs.«120049_j10565619548782_2_alg».proof.Proof.Gen.ReferenceIdeal.Read
import proofs.«120049_j10565619548782_2_alg».proof.Proof.Spec
import Idealize.ShloMosaic.Lib.ValueIdx
import Idealize.ShloMosaic.PureOps.Ideal.Laws

noncomputable section

open scoped BigOperators

namespace Cert.ReferenceIdeal.RefValue

open Cert.ReferenceIdeal Cert.ReferenceIdeal.Read Cert.EdgeSum Idealize.ShloMosaic Idealize.ShloMosaic.ValueIdx

/-- The reference's last stage is the specification, index by index. The five index equations say which entry of
    which argument each composed index map of the stages reaches: the receiving node's features, the top block's
    column, the sending node's features, the bottom block's column (row `128 + d` of the stacked weights), and the
    bias entry of the output feature. -/
theorem stage_eq_edgeSum (x : (⟨S8x256x128, .f32⟩ : BufTy).Contents (Elt Ideal))
    (W : (⟨S256x128, .f32⟩ : BufTy).Contents (Elt Ideal)) (β : (⟨S128, .f32⟩ : BufTy).Contents (Elt Ideal)) :
    val_main_v13 (F := Ideal) x W β = edgeSum x W β := by
  funext i
  obtain ⟨b, n, f, rfl⟩ : ∃ (b : Fin 8) (n : Fin 256) (f : Fin 128), i = ix3 b n f := ⟨i 0, i 1, i 2, eq_ix3 i⟩
  have e1 : ∀ (j : Fin 256) (d : Fin 128),
      lidx_main_v2 (idx_main_v4 (idx_main_v6 (idx_main_v13 (ix3 b n f) j))) d = ix3 b n d := fun j d =>
    funext fun a => Fin.ext (by match a with | ⟨0, _⟩ => rfl | ⟨1, _⟩ => rfl | ⟨2, _⟩ => rfl)
  have e2 : ∀ (j : Fin 256) (d : Fin 128),
      idx_main_v0 (ridx_main_v2 (idx_main_v4 (idx_main_v6 (idx_main_v13 (ix3 b n f) j))) d) = ix2 (topRow d) f := fun j d =>
    funext fun a => Fin.ext (by match a with | ⟨0, _⟩ => rfl | ⟨1, _⟩ => rfl)
  have e3 : ∀ (j : Fin 256) (d : Fin 128),
      lidx_main_v3 (idx_main_v5 (idx_main_v7 (idx_main_v13 (ix3 b n f) j))) d = ix3 b j d := fun j d =>
    funext fun a => Fin.ext (by match a with | ⟨0, _⟩ => rfl | ⟨1, _⟩ => rfl | ⟨2, _⟩ => rfl)
  have e4 : ∀ (j : Fin 256) (d : Fin 128),
      idx_main_v1 (ridx_main_v3 (idx_main_v5 (idx_main_v7 (idx_main_v13 (ix3 b n f) j))) d) = ix2 (botRow d) f := fun j d =>
    funext fun a => Fin.ext (by match a with | ⟨0, _⟩ => rfl | ⟨1, _⟩ => rfl)
  have e5 : ∀ j : Fin 256, idx_main_v9 (idx_main_v10 (idx_main_v13 (ix3 b n f) j)) = ix1 f := fun j =>
    funext fun a => Fin.ext (by match a with | ⟨0, _⟩ => rfl)
  rw [val_main_v13_apply]
  simp only [val_main_v12_apply, val_main_v11_apply, val_main_v8_apply, val_main_v6_apply, val_main_v4_apply,
    val_main_v7_apply, val_main_v5_apply, val_main_v10_apply, val_main_v9_apply, val_main_call0_v0_apply,
    val_main_call0_cst_apply, val_main_cst_apply, val_main_v2_apply, val_main_v3_apply, val_main_v0_apply,
    val_main_v1_apply, Ideal.addf_def, Ideal.maximumf_def, Ideal.ofBits_def, Ideal.ofBits_zero_f32, zero_add,
    e1, e2, e3, e4, e5]
  rfl

end Cert.ReferenceIdeal.RefValue

end
-- ==== Proof.ProjRegion.lean ====
/-
  The first call: every node projected by the two weight blocks, once per node.

  The grid has 8 points, one per batch. Point `b` reads batch `b` of the node features and, whole, the top weight
  block, the bottom weight block and the bias row; it writes batch `b` of two arrays: the nodes projected by the top
  block with the bias row added to every projected node, and the nodes projected by the bottom block. The body's matrix
  products accumulate into zero, so each is the plain sum over the 128 input features. What a point writes back is its
  block of one whole-array function of the arrays the call finds, and the 8 blocks tile each result array.
-/
import proofs.«120049_j10565619548782_2_alg».proof.Proof.Gen.KernelIdeal.Frame
import proofs.«120049_j10565619548782_2_alg».proof.Proof.Spec
import Idealize.ShloMosaic.Lib.Pipeline.Value
import Idealize.ShloMosaic.Lib.ValueLayout
import Idealize.ShloMosaic.PureOps.Ideal.Laws

noncomputable section

open scoped BigOperators

namespace Cert.KernelIdeal.ProjRegion

open Cert.KernelIdeal Cert.KernelIdeal.Gen Cert.EdgeSum
open Idealize.ShloMosaic Idealize.ShloMosaic.TcCoe Idealize.ShloMosaic.ValueIdx Idealize.SL.Sem
open Idealize.ShloMosaic.Pipeline (Dat)

/-! ## The body's arithmetic at one entry of its block -/

/-- The body's matrix product into the zero accumulator, at row `n` and column `f`: the sum over the contracted
    feature `d` of `l[n,d] · r[d,f]`. The contraction has one axis; the sum over its index set is re-indexed by that
    axis's coordinate, and each operand's index at `(n, f)` and `d` is read off the dimension numbers. -/
theorem matmul_at (l : FVec Ideal S256x128 .bf16) (r : FVec Ideal S128x128 .bf16) (n : Fin 256) (f : Fin 128) :
    (matmul dot_S256x128_S128x128_S256x128_1_0_0_1_n_n none l r (constant (F := Ideal) S256x128 .f32 0x00000000#32) : S256x128.Idx → EReal) (ix2 n f)
      = ∑ d : Fin 128, l (ix2 n d) * r (ix2 d f) := by
  refine (Ideal.matmul_constant_zero_apply dot_S256x128_S128x128_S256x128_1_0_0_1_n_n none l r (ix2 n f)).trans ?_
  rw [← Equiv.sum_comp (contrEquiv1 dot_S256x128_S128x128_S256x128_1_0_0_1_n_n 128 rfl rfl).symm]
  refine Finset.sum_congr rfl fun d _ => ?_
  have hk := contrEquiv1_symm_val dot_S256x128_S128x128_S256x128_1_0_0_1_n_n 128 rfl rfl d
  have el : dot_S256x128_S128x128_S256x128_1_0_0_1_n_n.lhsIdx (ix2 n f) ((contrEquiv1 dot_S256x128_S128x128_S256x128_1_0_0_1_n_n 128 rfl rfl).symm d) = ix2 n d :=
    funext fun a => Fin.ext (by
      match a with
      | ⟨0, _⟩ =>
        show (dot_S256x128_S128x128_S256x128_1_0_0_1_n_n.lhsIdx (ix2 n f) _ 0).val = n.val
        unfold DotDims.lhsIdx
        rw [dif_neg (show ¬(0 : Fin S256x128.rank) ∈ dot_S256x128_S128x128_S256x128_1_0_0_1_n_n.lhsBatch by decide),
          dif_pos (show (0 : Fin S256x128.rank) ∈ dot_S256x128_S128x128_S256x128_1_0_0_1_n_n.lhsNonContracting by decide)]
        rfl
      | ⟨1, _⟩ => exact (dot_S256x128_S128x128_S256x128_1_0_0_1_n_n.lhsIdx_val_of_single rfl (ix2 n f) _).trans hk)
  have er : dot_S256x128_S128x128_S256x128_1_0_0_1_n_n.rhsIdx (ix2 n f) ((contrEquiv1 dot_S256x128_S128x128_S256x128_1_0_0_1_n_n 128 rfl rfl).symm d) = ix2 d f :=
    funext fun a => Fin.ext (by
      match a with
      | ⟨0, _⟩ => exact (dot_S256x128_S128x128_S256x128_1_0_0_1_n_n.rhsIdx_val_of_single rfl (ix2 n f) _).trans hk
      | ⟨1, _⟩ =>
        show (dot_S256x128_S128x128_S256x128_1_0_0_1_n_n.rhsIdx (ix2 n f) _ 1).val = f.val
        unfold DotDims.rhsIdx
        rw [dif_neg (show ¬(1 : Fin S128x128.rank) ∈ dot_S256x128_S128x128_S256x128_1_0_0_1_n_n.rhsBatch by decide),
          dif_pos (show (1 : Fin S128x128.rank) ∈ dot_S256x128_S128x128_S256x128_1_0_0_1_n_n.rhsNonContracting by decide)]
        rfl)
  rw [el, er]

/-- Entry `(u, n, f)` of the second stored block: node `n` projected by the weight block, `∑_d x[0,n,d] · w[d,f]`. -/
theorem projAll_payload (x : Vec Ideal S1x256x128 .f32) (w : Vec Ideal S128x128 .f32) (u : Fin 1) (n : Fin 256) (f : Fin 128) :
    k0_pay3 (F := Ideal) x w (ix3 u n f) = ∑ d : Fin 128, x (ix3 (0 : Fin 1) n d) * w (ix2 d f) := by
  unfold k0_pay3 k0_pay1
  refine (shapeCast_ab_1ab_apply _ shapeCasts_S256x128_S1x256x128 u n f).trans ?_
  refine (matmul_at _ _ n f).trans ?_
  refine Finset.sum_congr rfl fun d _ => ?_
  show (shapeCast S256x128 x shapeCasts_S1x256x128_S256x128 : S256x128.Idx → EReal) (ix2 n d)
      * (shapeCast S128x128 w shapeCasts_S128x128_S128x128 : S128x128.Idx → EReal) (ix2 d f) = _
  rw [shapeCast_1ab_ab_apply, shapeCast_self]

/-- Entry `(u, n, f)` of the first stored block: the same projection with the bias row's entry `f` added. The row
    passes through a cast to a vector and back and is then repeated down the 256 rows. -/
theorem projBias_payload (x : Vec Ideal S1x256x128 .f32) (w : Vec Ideal S128x128 .f32) (r : Vec Ideal S1x128 .f32)
    (u : Fin 1) (n : Fin 256) (f : Fin 128) :
    k0_pay2 (F := Ideal) x w r (ix3 u n f)
      = (∑ d : Fin 128, x (ix3 (0 : Fin 1) n d) * w (ix2 d f)) + r (ix2 (0 : Fin 1) f) := by
  unfold k0_pay2 k0_pay1
  refine (shapeCast_ab_1ab_apply _ shapeCasts_S256x128_S1x256x128 u n f).trans ?_
  show (matmul dot_S256x128_S128x128_S256x128_1_0_0_1_n_n none (shapeCast S256x128 x shapeCasts_S1x256x128_S256x128 : S256x128.Idx → EReal)
          (shapeCast S128x128 w shapeCasts_S128x128_S128x128 : S128x128.Idx → EReal)
          (constant (F := Ideal) S256x128 .f32 0x00000000#32) : S256x128.Idx → EReal) (ix2 n f)
      + (broadcastTo S256x128 (shapeCast S1x128 (shapeCast S128 r shapeCasts_S1x128_S128) shapeCasts_S128_S1x128)
          broadcasts_S1x128_S256x128 : S256x128.Idx → EReal) (ix2 n f) = _
  rw [matmul_at, broadcastTo_1b_ab_apply, shapeCast_a_1a_apply, shapeCast_1a_a_apply]
  refine congrArg (· + r (ix2 (0 : Fin 1) f)) (Finset.sum_congr rfl fun d _ => ?_)
  rw [shapeCast_1ab_ab_apply, shapeCast_self]

/-! ## The blocks -/

variable (V : (c : Dev nD) → (b : Ref sig .tc) → Buf (Elt Ideal) ((c : Thread nD τ).loc b))

theorem origin3 : (![0, 0, 0] : Fin 3 → Nat) = fun _ => 0 := funext fun a => by fin_cases a <;> rfl
theorem origin2 : (![0, 0] : Fin 2 → Nat) = fun _ => 0 := funext fun a => by fin_cases a <;> rfl

/-- The printed index maps, decided over the 8 points: the node-feature window and both result windows take batch
    `t` whole; the weight blocks and the bias row are always taken whole. -/
theorem index_maps : ∀ t : Fin cfg0.N,
    win0_0.index t (0 : Fin 3) = win0_4.index t (0 : Fin 3) ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (1 : Fin 3) = 0 ∧ win0_4.index t (2 : Fin 3) = 0 ∧ win0_4.index t (0 : Fin 3) ≤ 7
    ∧ win0_5.index t (0 : Fin 3) = win0_4.index t (0 : Fin 3) ∧ win0_5.index t (1 : Fin 3) = 0 ∧ win0_5.index t (2 : Fin 3) = 0 :=
  (by decide +kernel : ∀ t : Fin grid0.N, _)

/-- Every batch is some point's, for each result window. -/
theorem index_onto4 : ∀ q0 : Fin 8, ∃ t : Fin cfg0.N, win0_4.index t = ![q0.val, 0, 0] :=
  (by decide +kernel : ∀ q0 : Fin 8, ∃ t : Fin grid0.N, win0_4.index t = ![q0.val, 0, 0])
theorem index_onto5 : ∀ q0 : Fin 8, ∃ t : Fin cfg0.N, win0_5.index t = ![q0.val, 0, 0] :=
  (by decide +kernel : ∀ q0 : Fin 8, ∃ t : Fin grid0.N, win0_5.index t = ![q0.val, 0, 0])

/-- The node-feature window's block at a point, read at a block index, is the node-feature array at the index whose
    coordinates are block index × block size + coordinate inside the block. -/
theorem node_block (c : Dev nD) (t : Fin cfg0.N) (y : S1x256x128.Idx) (k : S8x256x128.Idx)
    (h0 : win0_0.index t (0 : Fin 3) * 1 + 1 * (y 0).val = (k 0).val)
    (h1 : win0_0.index t (1 : Fin 3) * 256 + 1 * (y 1).val = (k 1).val)
    (h2 : win0_0.index t (2 : Fin 3) * 128 + 1 * (y 2).val = (k 2).val) :
    (iblk0 V c 0 t : Vec Ideal S1x256x128 .f32) y = (V c main_arg0 : S8x256x128.Idx → EReal) k := by
  unfold iblk0
  rw [View.read_apply]
  show V c main_arg0 _ = V c main_arg0 k
  refine congrArg (V c main_arg0) (funext fun a => Fin.ext ?_)
  match a with
  | ⟨0, _⟩ => exact h0
  | ⟨1, _⟩ => exact h1
  | ⟨2, _⟩ => exact h2

/-- The same for the top weight block's window. -/
theorem top_block (c : Dev nD) (t : Fin cfg0.N) (y : S128x128.Idx) (k : S128x128.Idx)
    (h0 : win0_1.index t (0 : Fin 2) * 128 + 1 * (y 0).val = (k 0).val)
    (h1 : win0_1.index t (1 : Fin 2) * 128 + 1 * (y 1).val = (k 1).val) :
    (iblk0 V c 1 t : Vec Ideal S128x128 .f32) y = (V c main_v0 : S128x128.Idx → EReal) k := by
  unfold iblk0
  rw [View.read_apply]
  show V c main_v0 _ = V c main_v0 k
  refine congrArg (V c main_v0) (funext fun a => Fin.ext ?_)
  match a with
  | ⟨0, _⟩ => exact h0
  | ⟨1, _⟩ => exact h1

/-- The same for the bottom weight block's window. -/
theorem bot_block (c : Dev nD) (t : Fin cfg0.N) (y : S128x128.Idx) (k : S128x128.Idx)
    (h0 : win0_2.index t (0 : Fin 2) * 128 + 1 * (y 0).val = (k 0).val)
    (h1 : win0_2.index t (1 : Fin 2) * 128 + 1 * (y 1).val = (k 1).val) :
    (iblk0 V c 2 t : Vec Ideal S128x128 .f32) y = (V c main_v1 : S128x128.Idx → EReal) k := by
  unfold iblk0
  rw [View.read_apply]
  show V c main_v1 _ = V c main_v1 k
  refine congrArg (V c main_v1) (funext fun a => Fin.ext ?_)
  match a with
  | ⟨0, _⟩ => exact h0
  | ⟨1, _⟩ => exact h1

/-- The same for the bias row's window. -/
theorem bias_block (c : Dev nD) (t : Fin cfg0.N) (y : S1x128.Idx) (k : S1x128.Idx)
    (h0 : win0_3.index t (0 : Fin 2) * 1 + 1 * (y 0).val = (k 0).val)
    (h1 : win0_3.index t (1 : Fin 2) * 128 + 1 * (y 1).val = (k 1).val) :
    (iblk0 V c 3 t : Vec Ideal S1x128 .f32) y = (V c main_v2 : S1x128.Idx → EReal) k := by
  unfold iblk0
  rw [View.read_apply]
  show V c main_v2 _ = V c main_v2 k
  refine congrArg (V c main_v2) (funext fun a => Fin.ext ?_)
  match a with
  | ⟨0, _⟩ => exact h0
  | ⟨1, _⟩ => exact h1

/-- WHAT A POINT WRITES BACK to the first result is its block of `projBias` of the arrays the call finds. -/
theorem projBias_flushed (c : Dev nD) (t : Fin cfg0.N) :
    (dat0 V c).flushed 4 t
      = ((cfg0.win 4).blk t).view.read (Elt Ideal) (projBias (V c main_arg0) (V c main_v0) (V c main_v2)) := by
  show (cfg0.win 4).cut (grid0.coords t) ((dat0 V c).after 4 t) = _
  rw [after0_4]
  unfold out0_4
  rw [View.canon_unit_zero origin3]
  simp only [View.ld_unit_zero (S := S1x256x128) origin3, View.ld_unit_zero (S := S128x128) origin2,
    View.ld_unit_zero (S := S1x128) origin2]
  obtain ⟨e0, e1, e2, e3, e4, e5, e6, e7, e8, e9, e10, e11, e12, e13, e14⟩ := index_maps t
  funext y
  obtain ⟨u, n, f, rfl⟩ : ∃ (u : Fin 1) (n : Fin 256) (f : Fin 128), y = ix3 u n f := ⟨y 0, y 1, y 2, eq_ix3 y⟩
  have hu : u.val = 0 := by omega
  refine (projBias_payload (iblk0 V c 0 t) (iblk0 V c 1 t) (iblk0 V c 3 t) u n f).trans ?_
  show _ = projBias (V c main_arg0) (V c main_v0) (V c main_v2) (((cfg0.win 4).blk t).view.emb (ix3 u n f))
  unfold projBias proj
  refine congrArg₂ (fun r s : EReal => r + s) (Finset.sum_congr rfl fun d _ => congrArg₂ (fun r s : EReal => r * s) ?_ ?_) ?_
  · refine node_block V c t (ix3 (0 : Fin 1) n d) _ ?_ ?_ ?_
    · show win0_0.index t (0 : Fin 3) * 1 + 1 * 0 = win0_4.index t (0 : Fin 3) * 1 + 1 * u.val; omega
    · show win0_0.index t (1 : Fin 3) * 256 + 1 * n.val = win0_4.index t (1 : Fin 3) * 256 + 1 * n.val; omega
    · show win0_0.index t (2 : Fin 3) * 128 + 1 * d.val = d.val; omega
  · refine top_block V c t (ix2 d f) _ ?_ ?_
    · show win0_1.index t (0 : Fin 2) * 128 + 1 * d.val = d.val; omega
    · show win0_1.index t (1 : Fin 2) * 128 + 1 * f.val = win0_4.index t (2 : Fin 3) * 128 + 1 * f.val; omega
  · refine bias_block V c t (ix2 (0 : Fin 1) f) _ ?_ ?_
    · show win0_3.index t (0 : Fin 2) * 1 + 1 * 0 = 0; omega
    · show win0_3.index t (1 : Fin 2) * 128 + 1 * f.val = win0_4.index t (2 : Fin 3) * 128 + 1 * f.val; omega

/-- WHAT A POINT WRITES BACK to the second result is its block of `projAll` of the arrays the call finds. -/
theorem projAll_flushed (c : Dev nD) (t : Fin cfg0.N) :
    (dat0 V c).flushed 5 t
      = ((cfg0.win 5).blk t).view.read (Elt Ideal) (projAll (V c main_arg0) (V c main_v1)) := by
  show (cfg0.win 5).cut (grid0.coords t) ((dat0 V c).after 5 t) = _
  rw [after0_5]
  unfold out0_5
  rw [View.canon_unit_zero origin3]
  simp only [View.ld_unit_zero (S := S1x256x128) origin3, View.ld_unit_zero (S := S128x128) origin2]
  obtain ⟨e0, e1, e2, e3, e4, e5, e6, e7, e8, e9, e10, e11, e12, e13, e14⟩ := index_maps t
  funext y
  obtain ⟨u, n, f, rfl⟩ : ∃ (u : Fin 1) (n : Fin 256) (f : Fin 128), y = ix3 u n f := ⟨y 0, y 1, y 2, eq_ix3 y⟩
  have hu : u.val = 0 := by omega
  refine (projAll_payload (iblk0 V c 0 t) (iblk0 V c 2 t) u n f).trans ?_
  show _ = projAll (V c main_arg0) (V c main_v1) (((cfg0.win 5).blk t).view.emb (ix3 u n f))
  unfold projAll proj
  refine Finset.sum_congr rfl fun d _ => congrArg₂ (fun r s : EReal => r * s) ?_ ?_
  · refine node_block V c t (ix3 (0 : Fin 1) n d) _ ?_ ?_ ?_
    · show win0_0.index t (0 : Fin 3) * 1 + 1 * 0 = win0_5.index t (0 : Fin 3) * 1 + 1 * u.val; omega
    · show win0_0.index t (1 : Fin 3) * 256 + 1 * n.val = win0_5.index t (1 : Fin 3) * 256 + 1 * n.val; omega
    · show win0_0.index t (2 : Fin 3) * 128 + 1 * d.val = d.val; omega
  · refine bot_block V c t (ix2 d f) _ ?_ ?_
    · show win0_2.index t (0 : Fin 2) * 128 + 1 * d.val = d.val; omega
    · show win0_2.index t (1 : Fin 2) * 128 + 1 * f.val = win0_5.index t (2 : Fin 3) * 128 + 1 * f.val; omega

/-- An index of the first result array is in a point's block iff each coordinate is in the block's range. -/
theorem mem_block4 (t : Fin cfg0.N) (i : S8x256x128.Idx) :
    i ∈ ((cfg0.win 4).blk t).view.set ↔ ∀ a : Fin 3, win0_4.index t a * S1x256x128.size a ≤ (i a).val
      ∧ (i a).val < win0_4.index t a * S1x256x128.size a + S1x256x128.size a := by
  show i ∈ ((View.whole main_v3_0).slice (win0_4.rect t)).set ↔ _
  rw [View.set_slice_whole, Rect.mem_set_unit]
  exact Iff.rfl

/-- The same for the second result array. -/
theorem mem_block5 (t : Fin cfg0.N) (i : S8x256x128.Idx) :
    i ∈ ((cfg0.win 5).blk t).view.set ↔ ∀ a : Fin 3, win0_5.index t a * S1x256x128.size a ≤ (i a).val
      ∧ (i a).val < win0_5.index t a * S1x256x128.size a + S1x256x128.size a := by
  show i ∈ ((View.whole main_v3_1).slice (win0_5.rect t)).set ↔ _
  rw [View.set_slice_whole, Rect.mem_set_unit]
  exact Iff.rfl

/-- The 8 blocks tile the first result array: index `(b, n, f)` is in the block of point `b`. -/
theorem covered4 (i : S8x256x128.Idx) :
    ∃ t : Fin cfg0.N, (cfg0.win 4).flush t = true ∧ i ∈ ((cfg0.win 4).blk t).view.set := by
  have h0 : (i 0).val < 8 := (i 0).isLt
  have h1 : (i 1).val < 256 := (i 1).isLt
  have h2 : (i 2).val < 128 := (i 2).isLt
  obtain ⟨t, ht⟩ := index_onto4 ⟨(i 0).val, h0⟩
  have q0 : win0_4.index t (0 : Fin 3) = (i 0).val := congrFun ht 0
  have q1 : win0_4.index t (1 : Fin 3) = 0 := congrFun ht 1
  have q2 : win0_4.index t (2 : Fin 3) = 0 := congrFun ht 2
  refine ⟨t, flush0_4 t, ?_⟩
  rw [mem_block4]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 256 ≤ (i 1).val ∧ (i 1).val < win0_4.index t (1 : Fin 3) * 256 + 256; omega
  | ⟨2, _⟩ => show win0_4.index t (2 : Fin 3) * 128 ≤ (i 2).val ∧ (i 2).val < win0_4.index t (2 : Fin 3) * 128 + 128; omega

/-- The same for the second result array. -/
theorem covered5 (i : S8x256x128.Idx) :
    ∃ t : Fin cfg0.N, (cfg0.win 5).flush t = true ∧ i ∈ ((cfg0.win 5).blk t).view.set := by
  have h0 : (i 0).val < 8 := (i 0).isLt
  have h1 : (i 1).val < 256 := (i 1).isLt
  have h2 : (i 2).val < 128 := (i 2).isLt
  obtain ⟨t, ht⟩ := index_onto5 ⟨(i 0).val, h0⟩
  have q0 : win0_5.index t (0 : Fin 3) = (i 0).val := congrFun ht 0
  have q1 : win0_5.index t (1 : Fin 3) = 0 := congrFun ht 1
  have q2 : win0_5.index t (2 : Fin 3) = 0 := congrFun ht 2
  refine ⟨t, flush0_5 t, ?_⟩
  rw [mem_block5]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 256 ≤ (i 1).val ∧ (i 1).val < win0_5.index t (1 : Fin 3) * 256 + 256; omega
  | ⟨2, _⟩ => show win0_5.index t (2 : Fin 3) * 128 ≤ (i 2).val ∧ (i 2).val < win0_5.index t (2 : Fin 3) * 128 + 128; omega

/-- THE FIRST RESULT ARRAY after the call: the nodes projected by the top block, the bias row added. -/
theorem projBias_array (c : Dev nD) :
    (dat0 V c).arrAt 4 cfg0.N = projBias (V c main_arg0) (V c main_v0) (V c main_v2) :=
  (dat0 V c).arrAt_eq_of_cover 4 (projBias (V c main_arg0) (V c main_v0) (V c main_v2))
    (fun t _ => projBias_flushed V c t) covered4

/-- THE SECOND RESULT ARRAY after the call: the nodes projected by the bottom block. -/
theorem projAll_array (c : Dev nD) :
    (dat0 V c).arrAt 5 cfg0.N = projAll (V c main_arg0) (V c main_v1) :=
  (dat0 V c).arrAt_eq_of_cover 5 (projAll (V c main_arg0) (V c main_v1))
    (fun t _ => projAll_flushed V c t) covered5

end Cert.KernelIdeal.ProjRegion

end
-- ==== Proof.LibPairwise.lean ====
/-
  Layout forms read at an index written by coordinates, for arrays that pair every row of one operand with every row of
  another: a middle unit axis added by a shape cast, and a unit axis (the middle one, or the leading one) filled by a
  broadcast. Each is the library's general lemma (a shape cast keeps the row-major position; a broadcast reads `0` on
  the operand's unit axes) at the shapes `[a, c]`, `[a, 1, c]`, `[1, b, c]`, `[a, b, c]`.
-/
import Idealize.ShloMosaic.Lib.Pipeline.Value
import Idealize.ShloMosaic.Lib.ValueIdx

namespace Cert.LibPairwise

open Idealize.ShloMosaic Idealize.ShloMosaic.ValueIdx

variable {α : Type}

/-- An `[a, c]` array cast to `[a, 1, c]` reads, at `(i, u, k)`, the operand at `(i, k)`, whatever the unit
    coordinate `u`. -/
theorem shapeCast_ac_a1c_apply {a c : ℕ} (x : (⟨2, ![a, c]⟩ : Shape).Idx → α)
    (h : (⟨2, ![a, c]⟩ : Shape).ShapeCasts ⟨3, ![a, 1, c]⟩) (i : Fin a) (u : Fin 1) (k : Fin c) :
    shapeCast ⟨3, ![a, 1, c]⟩ x h (ix3 i u k) = x (ix2 i k) :=
  shapeCast_apply x h _ _ (by
    have hu : u.val = 0 := by omega
    rw [Shape.rowMajor_val_three, Shape.rowMajor_val_two]
    show i.val * c + k.val = (i.val * 1 + u.val) * c + k.val
    rw [hu, Nat.mul_one, Nat.add_zero])

/-- An `[a, 1, c]` array broadcast to `[a, b, c]` reads, at `(i, j, k)`, the operand at `(i, 0, k)`: every `j` sees
    the same row. (`hb`: the filled axis is a real one; the other two extents may be anything.) -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- A `[1, b, c]` array broadcast to `[a, b, c]` reads, at `(i, j, k)`, the operand at `(0, j, k)`: every `i` sees
    the whole operand. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ v h (ix3 i j k) = v (ix3 (0 : Fin 1) j k) := by
  refine broadcastTo_apply v h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

end Cert.LibPairwise
-- ==== Proof.EdgeRegion.lean ====
/-
  The second call: from the two node arrays the first call left, every node's sum of incoming edges.

  The grid has 8 × 4 points. Point `(b, q)` reads rows `64q … 64q + 63` of batch `b` of the receiving-node array and
  the whole of batch `b` of the sending-node array, and writes rows `64q … 64q + 63` of batch `b` of the result. Inside
  a point the body pairs each of its 64 receiving rows with all 256 sending rows (a middle unit axis, then two
  broadcasts), adds, takes the maximum with zero, and sums over the sending axis. So what a point writes back is its
  block of one whole-array function, `reluSum` of the two arrays, and the 32 blocks tile the result array.
-/
import proofs.«120049_j10565619548782_2_alg».proof.Proof.Gen.KernelIdeal.Frame
import proofs.«120049_j10565619548782_2_alg».proof.Proof.Spec
import proofs.«120049_j10565619548782_2_alg».proof.Proof.LibPairwise
import Idealize.ShloMosaic.Lib.Pipeline.Value
import Idealize.ShloMosaic.Lib.ValueLayout
import Idealize.ShloMosaic.PureOps.Ideal.Laws

noncomputable section

open scoped BigOperators

namespace Cert.KernelIdeal.EdgeRegion

open Cert.KernelIdeal Cert.KernelIdeal.Gen Cert.EdgeSum Cert.LibPairwise
open Idealize.ShloMosaic Idealize.ShloMosaic.TcCoe Idealize.ShloMosaic.ValueIdx Idealize.SL.Sem
open Idealize.ShloMosaic.Pipeline (Dat)

/-! ## The body's arithmetic at one entry of its block -/

/-- The zero the maximum is taken with, written in the narrow format, is the extended real `0`. -/
theorem bf16_zero : Ideal.ofBits .bf16 0x0000#16 = 0 := by
  simp [Ideal.ofBits, Ideal.ieee]

/-- Entry `(u, p, f)` of what a point stores: the sum over the 256 sending rows `j` of
    `max (a[0,p,f] + c[0,j,f], 0)`. The changes of format are the identity; the unit axes and broadcasts only say
    which entry of `a` and of `c` meets which; the lane sum over the middle axis is the plain sum. -/
theorem edge_payload (a : Vec Ideal S1x64x128 .f32) (c : Vec Ideal S1x256x128 .f32) (u : Fin 1) (p : Fin 64) (f : Fin 128) :
    k1_pay1 (F := Ideal) a c (ix3 u p f) = ∑ j : Fin 256, max (a (ix3 (0 : Fin 1) p f) + c (ix3 (0 : Fin 1) j f)) 0 := by
  unfold k1_pay1
  refine (shapeCast_ab_1ab_apply _ shapeCasts_S64x128_S1x64x128 u p f).trans ?_
  refine (Ideal.multiReduction_add_single _ 0x00000000#32 reduces_S64x256x128_S64x128 (.inl rfl) rfl (ix2 p f)).trans ?_
  refine Finset.sum_congr rfl fun (j : Fin 256) _ => ?_
  have hl : reduces_S64x256x128_S64x128.lift (ix2 p f) j = ix3 p j f :=
    funext fun ax => Fin.ext (by match ax with | ⟨0, _⟩ => rfl | ⟨1, _⟩ => rfl | ⟨2, _⟩ => rfl)
  rw [hl]
  show max ((broadcastTo S64x256x128 (shapeCast S64x1x128 (shapeCast S64x128 a shapeCasts_S1x64x128_S64x128) shapeCasts_S64x128_S64x1x128) broadcasts_S64x1x128_S64x256x128 : S64x256x128.Idx → EReal) (ix3 p j f)
        + (broadcastTo S64x256x128 (shapeCast S1x256x128 (shapeCast S256x128 c shapeCasts_S1x256x128_S256x128) shapeCasts_S256x128_S1x256x128) broadcasts_S1x256x128_S64x256x128 : S64x256x128.Idx → EReal) (ix3 p j f))
      (Ideal.ofBits .bf16 0x0000#16) = _
  rw [broadcastTo_a1c_abc_apply, shapeCast_ac_a1c_apply, shapeCast_1ab_ab_apply, broadcastTo_1bc_abc_apply,
    shapeCast_ab_1ab_apply, shapeCast_1ab_ab_apply, bf16_zero]

/-! ## The blocks -/

variable (V : (c : Dev nD) → (b : Ref sig .tc) → Buf (Elt Ideal) ((c : Thread nD τ).loc b))

theorem origin3 : (![0, 0, 0] : Fin 3 → Nat) = fun _ => 0 := funext fun a => by fin_cases a <;> rfl

/-- The printed index maps, decided over the 32 points: the receiving window moves with the result window on the batch
    and row-block axes; the sending window follows the batch only and always takes the whole batch; no window is split
    along the feature axis; the result's block indices stay in range. -/
theorem index_maps : ∀ t : Fin cfg1.N,
    win1_0.index t (0 : Fin 3) = win1_2.index t (0 : Fin 3) ∧ win1_0.index t (1 : Fin 3) = win1_2.index t (1 : Fin 3)
    ∧ win1_0.index t (2 : Fin 3) = 0
    ∧ win1_1.index t (0 : Fin 3) = win1_2.index t (0 : Fin 3) ∧ win1_1.index t (1 : Fin 3) = 0 ∧ win1_1.index t (2 : Fin 3) = 0
    ∧ win1_2.index t (2 : Fin 3) = 0 ∧ win1_2.index t (0 : Fin 3) ≤ 7 ∧ win1_2.index t (1 : Fin 3) ≤ 3 :=
  (by decide +kernel : ∀ t : Fin grid1.N, _)

/-- Every (batch, row block) pair is some point's. -/
theorem index_onto : ∀ (q0 : Fin 8) (q1 : Fin 4), ∃ t : Fin cfg1.N, win1_2.index t = ![q0.val, q1.val, 0] :=
  (by decide +kernel : ∀ (q0 : Fin 8) (q1 : Fin 4), ∃ t : Fin grid1.N, win1_2.index t = ![q0.val, q1.val, 0])

/-- The receiving window's block at a point, read at a block index, is the receiving-node array at the index whose
    coordinates are block index × block size + coordinate inside the block. -/
theorem recv_block (c : Dev nD) (t : Fin cfg1.N) (y : S1x64x128.Idx) (k : S8x256x128.Idx)
    (h0 : win1_0.index t (0 : Fin 3) * 1 + 1 * (y 0).val = (k 0).val)
    (h1 : win1_0.index t (1 : Fin 3) * 64 + 1 * (y 1).val = (k 1).val)
    (h2 : win1_0.index t (2 : Fin 3) * 128 + 1 * (y 2).val = (k 2).val) :
    (iblk1 V c 0 t : Vec Ideal S1x64x128 .f32) y = (V c main_v3_0 : S8x256x128.Idx → EReal) k := by
  unfold iblk1
  rw [View.read_apply]
  show V c main_v3_0 _ = V c main_v3_0 k
  refine congrArg (V c main_v3_0) (funext fun a => Fin.ext ?_)
  match a with
  | ⟨0, _⟩ => exact h0
  | ⟨1, _⟩ => exact h1
  | ⟨2, _⟩ => exact h2

/-- The same for the sending window. -/
theorem send_block (c : Dev nD) (t : Fin cfg1.N) (y : S1x256x128.Idx) (k : S8x256x128.Idx)
    (h0 : win1_1.index t (0 : Fin 3) * 1 + 1 * (y 0).val = (k 0).val)
    (h1 : win1_1.index t (1 : Fin 3) * 256 + 1 * (y 1).val = (k 1).val)
    (h2 : win1_1.index t (2 : Fin 3) * 128 + 1 * (y 2).val = (k 2).val) :
    (iblk1 V c 1 t : Vec Ideal S1x256x128 .f32) y = (V c main_v3_1 : S8x256x128.Idx → EReal) k := by
  unfold iblk1
  rw [View.read_apply]
  show V c main_v3_1 _ = V c main_v3_1 k
  refine congrArg (V c main_v3_1) (funext fun a => Fin.ext ?_)
  match a with
  | ⟨0, _⟩ => exact h0
  | ⟨1, _⟩ => exact h1
  | ⟨2, _⟩ => exact h2

/-- WHAT A POINT WRITES BACK is its block of `reluSum` of the two node arrays as the call finds them. -/
theorem edge_flushed (c : Dev nD) (t : Fin cfg1.N) :
    (dat1 V c).flushed 2 t
      = ((cfg1.win 2).blk t).view.read (Elt Ideal) (reluSum (V c main_v3_0) (V c main_v3_1)) := by
  show (cfg1.win 2).cut (grid1.coords t) ((dat1 V c).after 2 t) = _
  rw [after1_2]
  unfold out1_2
  rw [View.canon_unit_zero origin3]
  simp only [View.ld_unit_zero (S := S1x64x128) origin3, View.ld_unit_zero (S := S1x256x128) origin3]
  obtain ⟨e0, e1, e2, e3, e4, e5, e6, e7, e8⟩ := index_maps t
  funext y
  obtain ⟨u, p, f, rfl⟩ : ∃ (u : Fin 1) (p : Fin 64) (f : Fin 128), y = ix3 u p f := ⟨y 0, y 1, y 2, eq_ix3 y⟩
  have hu : u.val = 0 := by omega
  refine (edge_payload (iblk1 V c 0 t) (iblk1 V c 1 t) u p f).trans ?_
  show _ = reluSum (V c main_v3_0) (V c main_v3_1) (((cfg1.win 2).blk t).view.emb (ix3 u p f))
  unfold reluSum
  refine Finset.sum_congr rfl fun j _ => ?_
  refine congrArg₂ (fun r s : EReal => max (r + s) 0) ?_ ?_
  · refine recv_block V c t (ix3 (0 : Fin 1) p f) (((cfg1.win 2).blk t).view.emb (ix3 u p f)) ?_ ?_ ?_
    · show win1_0.index t (0 : Fin 3) * 1 + 1 * 0 = win1_2.index t (0 : Fin 3) * 1 + 1 * u.val; omega
    · show win1_0.index t (1 : Fin 3) * 64 + 1 * p.val = win1_2.index t (1 : Fin 3) * 64 + 1 * p.val; omega
    · show win1_0.index t (2 : Fin 3) * 128 + 1 * f.val = win1_2.index t (2 : Fin 3) * 128 + 1 * f.val; omega
  · refine send_block V c t (ix3 (0 : Fin 1) j f)
      (ix3 ((((cfg1.win 2).blk t).view.emb (ix3 u p f)) 0) j ((((cfg1.win 2).blk t).view.emb (ix3 u p f)) 2)) ?_ ?_ ?_
    · show win1_1.index t (0 : Fin 3) * 1 + 1 * 0 = win1_2.index t (0 : Fin 3) * 1 + 1 * u.val; omega
    · show win1_1.index t (1 : Fin 3) * 256 + 1 * j.val = j.val; omega
    · show win1_1.index t (2 : Fin 3) * 128 + 1 * f.val = win1_2.index t (2 : Fin 3) * 128 + 1 * f.val; omega

/-- An index of the result array is in a point's block iff each coordinate is in the block's range on its axis. -/
theorem mem_block (t : Fin cfg1.N) (i : S8x256x128.Idx) :
    i ∈ ((cfg1.win 2).blk t).view.set ↔ ∀ a : Fin 3, win1_2.index t a * S1x64x128.size a ≤ (i a).val
      ∧ (i a).val < win1_2.index t a * S1x64x128.size a + S1x64x128.size a := by
  show i ∈ ((View.whole main_v4).slice (win1_2.rect t)).set ↔ _
  rw [View.set_slice_whole, Rect.mem_set_unit]
  exact Iff.rfl

/-- The 32 blocks tile the result array: index `(b, n, f)` is in the block of the point `(b, n / 64)`. -/
theorem covered (i : S8x256x128.Idx) :
    ∃ t : Fin cfg1.N, (cfg1.win 2).flush t = true ∧ i ∈ ((cfg1.win 2).blk t).view.set := by
  have h0 : (i 0).val < 8 := (i 0).isLt
  have h1 : (i 1).val < 256 := (i 1).isLt
  have h2 : (i 2).val < 128 := (i 2).isLt
  obtain ⟨t, ht⟩ := index_onto ⟨(i 0).val, h0⟩ ⟨(i 1).val / 64, by omega⟩
  have q0 : win1_2.index t (0 : Fin 3) = (i 0).val := congrFun ht 0
  have q1 : win1_2.index t (1 : Fin 3) = (i 1).val / 64 := congrFun ht 1
  have q2 : win1_2.index t (2 : Fin 3) = 0 := congrFun ht 2
  refine ⟨t, flush1_2 t, ?_⟩
  rw [mem_block]
  intro a
  match a with
  | ⟨0, _⟩ => show win1_2.index t (0 : Fin 3) * 1 ≤ (i 0).val ∧ (i 0).val < win1_2.index t (0 : Fin 3) * 1 + 1; omega
  | ⟨1, _⟩ => show win1_2.index t (1 : Fin 3) * 64 ≤ (i 1).val ∧ (i 1).val < win1_2.index t (1 : Fin 3) * 64 + 64; omega
  | ⟨2, _⟩ => show win1_2.index t (2 : Fin 3) * 128 ≤ (i 2).val ∧ (i 2).val < win1_2.index t (2 : Fin 3) * 128 + 128; omega

/-- THE RESULT ARRAY after the call: `reluSum` of the two node arrays the call was entered with. -/
theorem edge_array (c : Dev nD) :
    (dat1 V c).arrAt 2 cfg1.N = reluSum (V c main_v3_0) (V c main_v3_1) :=
  (dat1 V c).arrAt_eq_of_cover 2 (reluSum (V c main_v3_0) (V c main_v3_1)) (fun t _ => edge_flushed V c t) covered

end Cert.KernelIdeal.EdgeRegion

end
-- ==== Proof.KernelRun.lean ====
/-
  The kernel's whole run, read as a value.

  Before the first call the host cuts the stacked weights into their top and bottom blocks and lays the bias out as one
  row. The first call leaves the two projected-node arrays, the second call the sums of edges; nothing else writes the
  result array. Following the buffer contents from the end of the run back to the launch memory, the result array holds
  `reluSum` of (the nodes projected by the top block, bias added) and (the nodes projected by the bottom block), which
  is the specification by the law of addition (`Cert.EdgeSum.reluSum_projBias`).
-/
import proofs.«120049_j10565619548782_2_alg».proof.Proof.Gen.KernelIdeal.Frame
import proofs.«120049_j10565619548782_2_alg».proof.Proof.Spec
import proofs.«120049_j10565619548782_2_alg».proof.Proof.ProjRegion
import proofs.«120049_j10565619548782_2_alg».proof.Proof.EdgeRegion
import Idealize.ShloMosaic.Lib.StableHlo.Run
import Idealize.ShloMosaic.Lib.ValueLayout
import Idealize.ShloMosaic.Lib.Pipeline.Value

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.EdgeSum Idealize.ShloMosaic.ValueIdx

/-! ## The host stretch before the first call, and the run with the result array named (any float instance) -/

section AnyInstance

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first call finds the node features as launched: no host operation writes them. -/
theorem entry_nodes (c : Dev nD) : V1 m ρ c main_arg0 = m ((c : Thread nD τ).loc main_arg0) := by
  show StableHlo.after hostOps0 (W0 m ρ c) (Proc.devRef .tc main_arg0) = _
  after_results

/-- It finds, as the top weight block, rows 0 … 127 of the stacked weights; -/
theorem entry_top (c : Dev nD) :
    V1 m ρ c main_v0
      = extractStridedSlice S128x128 ![0, 0] (m ((c : Thread nD τ).loc main_arg1)) slices_S256x128_S128x128_0_0 := by
  show StableHlo.after hostOps0 (W0 m ρ c) (Proc.devRef .tc main_v0) = _
  after_results

/-- as the bottom weight block, rows 128 … 255; -/
theorem entry_bot (c : Dev nD) :
    V1 m ρ c main_v1
      = extractStridedSlice S128x128 ![128, 0] (m ((c : Thread nD τ).loc main_arg1)) slices_S256x128_S128x128_128_0 := by
  show StableHlo.after hostOps0 (W0 m ρ c) (Proc.devRef .tc main_v1) = _
  after_results

/-- and, as the bias row, the bias vector cast to one row. -/
theorem entry_row (c : Dev nD) :
    V1 m ρ c main_v2 = shapeCast S1x128 (m ((c : Thread nD τ).loc main_arg2)) shapeCasts_S128_S1x128 := by
  show StableHlo.after hostOps0 (W0 m ρ c) (Proc.devRef .tc main_v2) = _
  after_results
  rfl

set_option backward.isDefEq.respectTransparency.types false in
/-- THE RUN, with the result array named: every weakly fair execution terminates without a fault, the result array
    ends at the contents the last boundary of the run holds for it, and the arguments end as launched. Every unscoped
    buffer ends at that boundary's contents; the result array is one of them. -/
theorem run_named : θ_run defs (onTc (τ := τ) (main (F := F))) ⟨m, fun _ => 0, ρ⟩ (fun r => ∀ c : Dev nD,
      r.2.mem ((c.tc : Thread nD τ).loc main_v4) = W3 m ρ c (Proc.devRef .tc main_v4)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v4 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c)⟩)

end AnyInstance

/-! ## The result array as a function of the arguments, at the extended reals -/

section AtIdeal

variable (m : (ℓ : Loc nD τ sig) → Buf (Elt Ideal) ℓ) (ρ : Dev nD → PrngReg)

/-- Rows 0 … 127 of the stacked weights are the top block. -/
theorem slice_top (W : S256x128.Idx → EReal) :
    extractStridedSlice S128x128 ![0, 0] W slices_S256x128_S128x128_0_0 = top W := by
  funext i
  obtain ⟨d, f, rfl⟩ : ∃ (d : Fin 128) (f : Fin 128), i = ix2 d f := ⟨i 0, i 1, eq_ix2 i⟩
  exact extractStridedSlice_apply ![0, 0] W slices_S256x128_S128x128_0_0 (ix2 d f) (ix2 (topRow d) f) (fun a =>
    match a with
    | ⟨0, _⟩ => by show d.val = 0 + d.val; omega
    | ⟨1, _⟩ => by show f.val = 0 + f.val; omega)

/-- Rows 128 … 255 are the bottom block. -/
theorem slice_bot (W : S256x128.Idx → EReal) :
    extractStridedSlice S128x128 ![128, 0] W slices_S256x128_S128x128_128_0 = bot W := by
  funext i
  obtain ⟨d, f, rfl⟩ : ∃ (d : Fin 128) (f : Fin 128), i = ix2 d f := ⟨i 0, i 1, eq_ix2 i⟩
  exact extractStridedSlice_apply ![128, 0] W slices_S256x128_S128x128_128_0 (ix2 d f) (ix2 (botRow d) f) (fun a =>
    match a with
    | ⟨0, _⟩ => by show 128 + d.val = 128 + d.val; omega
    | ⟨1, _⟩ => by show f.val = 0 + f.val; omega)

/-- The bias vector cast to one row is the bias as a row. -/
theorem reshape_row (β : S128.Idx → EReal) : shapeCast S1x128 β shapeCasts_S128_S1x128 = row β := by
  funext i
  obtain ⟨u, f, rfl⟩ : ∃ (u : Fin 1) (f : Fin 128), i = ix2 u f := ⟨i 0, i 1, eq_ix2 i⟩
  exact shapeCast_a_1a_apply β shapeCasts_S128_S1x128 u f

/-- The second call finds, as the receiving-node array, what the first call left in its first result: the nodes
    projected by the top block, the bias added. -/
theorem receiving (c : Dev nD) :
    V2 m ρ c main_v3_0
      = projBias (m ((c : Thread nD τ).loc main_arg0)) (top (m ((c : Thread nD τ).loc main_arg1)))
          (row (m ((c : Thread nD τ).loc main_arg2))) :=
  calc V2 m ρ c main_v3_0
      _ = (dat0 (V1 m ρ) c).arrAt 4 cfg0.N := W2_arr m ρ c 4
      _ = projBias (V1 m ρ c main_arg0) (V1 m ρ c main_v0) (V1 m ρ c main_v2) := ProjRegion.projBias_array (V1 m ρ) c
      _ = _ := by rw [entry_nodes, entry_top, entry_row, slice_top, reshape_row]

/-- And as the sending-node array, the nodes projected by the bottom block. -/
theorem sending (c : Dev nD) :
    V2 m ρ c main_v3_1
      = projAll (m ((c : Thread nD τ).loc main_arg0)) (bot (m ((c : Thread nD τ).loc main_arg1))) :=
  calc V2 m ρ c main_v3_1
      _ = (dat0 (V1 m ρ) c).arrAt 5 cfg0.N := W2_arr m ρ c 5
      _ = projAll (V1 m ρ c main_arg0) (V1 m ρ c main_v1) := ProjRegion.projAll_array (V1 m ρ) c
      _ = _ := by rw [entry_nodes, entry_bot, slice_bot]

/-- THE RESULT ARRAY at the end of the run is the specification of the arguments. -/
theorem result_eq (c : Dev nD) :
    W3 m ρ c (Proc.devRef .tc main_v4)
      = edgeSum (m ((c : Thread nD τ).loc main_arg0)) (m ((c : Thread nD τ).loc main_arg1))
          (m ((c : Thread nD τ).loc main_arg2)) :=
  calc W3 m ρ c (Proc.devRef .tc main_v4)
      _ = (dat1 (V2 m ρ) c).arrAt 2 cfg1.N := W3_arr m ρ c 2
      _ = reluSum (V2 m ρ c main_v3_0) (V2 m ρ c main_v3_1) := EdgeRegion.edge_array (V2 m ρ) c
      _ = reluSum (projBias (m ((c : Thread nD τ).loc main_arg0)) (top (m ((c : Thread nD τ).loc main_arg1)))
            (row (m ((c : Thread nD τ).loc main_arg2))))
          (projAll (m ((c : Thread nD τ).loc main_arg0)) (bot (m ((c : Thread nD τ).loc main_arg1)))) := by
        rw [receiving, sending]
      _ = _ := reluSum_projBias _ _ _

/-- THE KERNEL'S RUN, READ: the result array ends at the specification of the arguments, the arguments as launched. -/
theorem run : θ_run defs (onTc (τ := τ) (main (F := Ideal))) ⟨m, fun _ => 0, ρ⟩ (fun r => ∀ c : Dev nD,
      r.2.mem ((c.tc : Thread nD τ).loc main_v4)
        = edgeSum (m ((c.tc : Thread nD τ).loc main_arg0)) (m ((c.tc : Thread nD τ).loc main_arg1))
            (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).1.trans (result_eq m ρ c), (h c).2⟩) (run_named m ρ)

end AtIdeal

end Cert.KernelIdeal.RunValue

end
-- ==== Proof.lean ====
/-
  A relational layer of a graph network: 8 batches of 256 nodes with 128 features each; stacked weights `W` (256 × 128)
  whose top block acts on the receiving node and whose bottom block acts on the sending node; a bias `β`. The result at
  node `i` and feature `f` is the sum over the sending nodes `j` of `max (x_i·W_top[·,f] + x_j·W_bot[·,f] + β[f], 0)`
  (`Cert.EdgeSum.edgeSum`, Proof/Spec.lean).

  The kernel computes it in two calls. The first projects every node once by each block and adds the bias to the
  receiving projection (Proof/ProjRegion.lean); the second pairs every receiving row with every sending row, adds, takes
  the maximum with zero and sums over the sending rows (Proof/EdgeRegion.lean). Read at the extended reals, where changes of
  float format are the identity and every sum is the exact sum, the run ends with the result array at the specification
  of the arguments (Proof/KernelRun.lean): the only difference from the reference's grouping is whether the bias enters
  before or after the two projections are added, and addition on the extended reals is commutative and associative.
  The reference adds both projections, then the bias, edge by edge; read one operation at a time it is the
  specification (Proof/Reference.lean). Neither side needs the inputs to be finite.

  The three frames: the two kernel programs run, fault-free, with their arguments unchanged (their generated frame
  runs); the reference's frame is its run with the result forgotten. The idealized kernel is the printed kernel's own
  text read at the extended reals: nothing was rewritten, so there is nothing to preserve.
-/
import proofs.«120049_j10565619548782_2_alg».proof.Defs
import proofs.«120049_j10565619548782_2_alg».proof.Proof.Gen.Kernel
import proofs.«120049_j10565619548782_2_alg».proof.Proof.Gen.Kernel.Frame
import proofs.«120049_j10565619548782_2_alg».proof.Proof.Gen.KernelIdeal
import proofs.«120049_j10565619548782_2_alg».proof.Proof.Gen.KernelIdeal.Frame
import proofs.«120049_j10565619548782_2_alg».proof.Proof.Gen.ReferenceIdeal
import proofs.«120049_j10565619548782_2_alg».proof.Proof.Gen.ReferenceIdeal.Run
import proofs.«120049_j10565619548782_2_alg».proof.Proof.Gen.ReferenceIdeal.Read
import proofs.«120049_j10565619548782_2_alg».proof.Proof.Gen.Pre_finite_inputs
import proofs.«120049_j10565619548782_2_alg».proof.Proof.Spec
import proofs.«120049_j10565619548782_2_alg».proof.Proof.Reference
import proofs.«120049_j10565619548782_2_alg».proof.Proof.KernelRun
import Idealize.ShloMosaic.Adequacy
import Idealize.ShloMosaic.Init

noncomputable section

namespace Cert.Proof

open Idealize.ShloMosaic Idealize.SL.Sem

/-- The printed kernel runs, fault-free, and leaves its arguments as launched. -/
theorem frame_kernel : Cert.frame_Kernel := fun m ρ _ => Cert.Kernel.Gen.frame m ρ

/-- So does its reading at the extended reals. -/
theorem frame_kernelIdeal : Cert.frame_KernelIdeal := fun m ρ _ => Cert.KernelIdeal.Gen.frame m ρ

/-- The reference runs, fault-free, and leaves its arguments as launched: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the node features, the weights and the bias, both programs end with their result array
    at the specification of those arguments, hence with equal results. -/
theorem algebraic : Cert.algebraic_KernelIdeal_ReferenceIdeal := by
  intro m ρ m' ρ' _ hagree
  refine ⟨fun c => Cert.EdgeSum.edgeSum
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v13_eq, Cert.ReferenceIdeal.RefValue.stage_eq_edgeSum,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
